-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S8x2048x1024 .f32) (main_arg1 : FVec F S8x2048x1024 .f32) (main_arg2 : FVec F S1024x1024 .f32) (main_arg3 : FVec F S1024x1024 .f32) (main_arg4 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x2048x1024 : Shape := ⟨3, ![8, 2048, 1024]⟩
abbrev S1024x1024 : Shape := ⟨2, ![1024, 1024]⟩
abbrev S16384x1024 : Shape := ⟨2, ![16384, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S16384x1024, .f32⟩
  | .hbm, ⟨9, _⟩ => ⟨S16384x1024, .bf16⟩
  | .hbm, ⟨10, _⟩ => ⟨S16384x1024, .bf16⟩
  | .hbm, ⟨11, _⟩ => ⟨S8x2048x1024, .bf16⟩
  | .hbm, ⟨12, _⟩ => ⟨S8x2048x1024, .bf16⟩
  | .hbm, ⟨13, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1024x1024, .bf16⟩
  | .local _ .vmem, ⟨11, _⟩ => ⟨S1x2048x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x256x1024, .f32⟩
  | .local _ .vmem, ⟨16, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  shapeCasts_S8x2048x1024_S16384x1024 : S8x2048x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S16384x1024_S8x2048x1024 : S16384x1024.ShapeCasts S8x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  transposes_S2048x1024_p1_0_S1024x2048 : S2048x1024.Transposes [1, 0] S1024x2048
  reduces_S256x2048_S256 : S256x2048.Reduces [1] S256
  shapeCasts_S256_S256x1 : S256.ShapeCasts S256x1
  broadcasts_S256x1_S256x2048 : S256x1.Broadcasts S256x2048
  shapeCasts_S256x1024_S1x256x1024 : S256x1024.ShapeCasts S1x256x1024
  dot_S1024x1024_S1024x1024_S1024x1024_1_0_0_1_n_n_wf : DotDims.WF S1024x1024 S1024x1024 S1024x1024 [1] [0] [0] [1] [] []
  dot_S256x1024_S1024x1024_S256x1024_1_0_0_1_n_n_wf : DotDims.WF S256x1024 S1024x1024 S256x1024 [1] [0] [0] [1] [] []
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .bf16 = 32 ∨ (Rect.block (s := S16384x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .bf16 = 32 ∨ (Rect.block (s := S16384x1024) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x2048x1024.size a
  hwx1_0 : ∀ i : grid1.Coords, EltTy.bits .f32 = 32 ∨ (Rect.block (s := S8x2048x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x1024.size a
  hwx1_2 : ∀ i : grid1.Coords, EltTy.bits .bf16 = 32 ∨ (Rect.block (s := S8x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S8x2048x1024.size a
  hwx1_3 : ∀ i : grid1.Coords, EltTy.bits .bf16 = 32 ∨ (Rect.block (s := S8x2048x1024) S1x2048x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1024.size a ≤ S8x2048x1024.size a
  hwx1_4 : ∀ i : grid1.Coords, EltTy.bits .f32 = 32 ∨ (Rect.block (s := S8x2048x1024) S1x256x1024.size (cc1_transform_4 i) (hinb1_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x2048x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x2048, .f32⟩
  | .hbm, ⟨9, _⟩ => ⟨S_, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KernelRun.lean ====
/-
  The idealized kernel's run with its result named.

  @main is four segments: three weight casts and a reshape of `y`, the projection region, two reshapes of the
  projected keys and values, and the attention region.  Every weakly fair execution terminates, without a fault,
  in a state whose unscoped buffers hold the contents the segments leave one after another; the last of those
  contents has the result array at what the attention region's write-backs leave of it, and the five argument
  arrays as they were launched.
-/
import proofs.«162966_j58171037057444_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the attention region's output window's array. -/
theorem result_is_window : Pipeline.arrRef spec1 (4 : Fin cfg1.W) = main_v7 := rfl

set_option backward.isDefEq.respectTransparency.types false in
/-- Every weakly fair execution of @main terminates, nothing faulting, with the result array at what the attention
    region's write-backs leave (its proof data's array after the last grid point, the region entered from the
    contents the three earlier segments leave) and the arguments as launched. -/
theorem run_result : θ_run defs (onTc (τ := τ) (main (F := F))) ⟨m, fun _ => 0, ρ⟩ (fun r => ∀ c : Dev nD,
      r.2.mem ((c.tc : Thread nD τ).loc main_v7) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v7 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.RunValue

end
-- ==== Proof.HostGlue.lean ====
/-
  What the two regions find in their arrays.

  Before the projection region the host casts the three weights to bf16 (an operation the programs keep; over the
  extended reals it changes no value) and reshapes `y` from [8, 2048, 1024] to [16384, 1024].  Between the regions
  it reshapes the projected keys and values from [16384, 1024] back to [8, 2048, 1024].  No host operation and no
  region writes an argument, so the attention region finds `q` as launched; the cast query weight is written once,
  before the first region, and nothing writes it afterwards.
-/
import proofs.«162966_j58171037057444_2_alg».proof.Proof.Gen.KernelIdeal.Frame
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]
variable (m : (ℓ : Loc nD τ sig) → Buf (Elt F) ℓ) (ρ : Dev nD → PrngReg)

/-! ## The projection region's inputs -/

/-- The projection region finds `y` reshaped to [16384, 1024]. -/
theorem V1_y (c : Dev nD) :
    V1 m ρ c main_v3 = shapeCast S16384x1024 (m ((c : Thread nD τ).loc main_arg1)) shapeCasts_S8x2048x1024_S16384x1024 := by
  show StableHlo.after hostOps0 (W0 m ρ c) (Proc.devRef .tc main_v3) = _
  after_results
  rfl

/-- … the key weight cast to bf16 … -/
theorem V1_wk (c : Dev nD) :
    V1 m ρ c main_v1 = truncf .bf16 (m ((c : Thread nD τ).loc main_arg3)) bitsLt_bf16_f32 := by
  show StableHlo.after hostOps0 (W0 m ρ c) (Proc.devRef .tc main_v1) = _
  after_results

/-- … and the value weight cast to bf16. -/
theorem V1_wv (c : Dev nD) :
    V1 m ρ c main_v2 = truncf .bf16 (m ((c : Thread nD τ).loc main_arg4)) bitsLt_bf16_f32 := by
  show StableHlo.after hostOps0 (W0 m ρ c) (Proc.devRef .tc main_v2) = _
  after_results

/-! ## The attention region's inputs -/

/-- The attention region finds the projected keys, the projection region's first output array after its
    write-backs, reshaped to [8, 2048, 1024]. -/
theorem V3_keys (c : Dev nD) :
    V3 m ρ c main_v5 = shapeCast S8x2048x1024 ((dat0 (V1 m ρ) c).arrAt 3 cfg0.N) shapeCasts_S16384x1024_S8x2048x1024 := by
  have e : W2 m ρ c (Proc.devRef .tc main_v4_0) = (dat0 (V1 m ρ) c).arrAt 3 cfg0.N := W2_arr m ρ c 3
  rw [← e]
  show StableHlo.after hostOps1 (W2 m ρ c) (Proc.devRef .tc main_v5) = _
  after_results
  rfl

/-- … and the values, its second output array, reshaped likewise. -/
theorem V3_vals (c : Dev nD) :
    V3 m ρ c main_v6 = shapeCast S8x2048x1024 ((dat0 (V1 m ρ) c).arrAt 4 cfg0.N) shapeCasts_S16384x1024_S8x2048x1024 := by
  have e : W2 m ρ c (Proc.devRef .tc main_v4_1) = (dat0 (V1 m ρ) c).arrAt 4 cfg0.N := W2_arr m ρ c 4
  rw [← e]
  show StableHlo.after hostOps1 (W2 m ρ c) (Proc.devRef .tc main_v6) = _
  after_results
  rfl

/-- It finds `q` as launched: neither host stretch nor the projection region writes it. -/
theorem V3_q (c : Dev nD) : V3 m ρ c main_arg0 = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- It finds the query weight cast to bf16: written before the first region, and by nothing after. -/
theorem V3_wq (c : Dev nD) :
    V3 m ρ c main_v0 = truncf .bf16 (m ((c : Thread nD τ).loc main_arg2)) bitsLt_bf16_f32 :=
  calc W3 m ρ c (Proc.devRef .tc main_v0)
    _ = W2 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v0) := W2_of_ne m ρ c main_v0 (by decide)
    _ = truncf .bf16 (m ((c : Thread nD τ).loc main_arg2)) bitsLt_bf16_f32 := by
          show StableHlo.after hostOps0 (W0 m ρ c) (Proc.devRef .tc main_v0) = _
          after_results

end Cert.KernelIdeal.Glue

end
-- ==== Proof.AttnSpec.lean ====
/-
  Cross attention with projected queries, keys and values, as one function of the five argument arrays.

  For a batch `b`, a query position `n` and an output feature `f`:
    qp(b,n,e)  = ∑ d, q(b,n,d) · Wq(d,e)            the projected query
    kp(b,m,e)  = ∑ d, y(b,m,d) · Wk(d,e)            the projected key
    vp(b,m,f)  = ∑ e, kp(b,m,e) · Wv(e,f)           the value: Wv applied to the PROJECTED key
    s(b,n,m)   = (∑ e, qp(b,n,e) · kp(b,m,e)) · 2⁻⁵  the score, scaled by 1/√1024 = 1/32
    mx(b,n)    = the maximum over m of s(b,n,m), folded from −∞
    p(b,n,m)   = exp (s(b,n,m) − mx(b,n)),   l(b,n) = ∑ m, p(b,n,m)
    out(b,n,f) = ∑ m, (p(b,n,m) / l(b,n)) · vp(b,m,f)

  One row of it (`rowAttn`) is stated over four accessors — the query row, the query weight, the keys and the values
  of the row's batch — so that the same function reads a row of a 256-row block against one batch's 2048 keys and a
  row of the whole arrays.  All values are extended reals and every operation is the exact one.
-/
import Idealize.ShloMosaic.PureOps.Ideal
import Idealize.ShloMosaic.Lib.ValueIdx

noncomputable section

namespace Cert.Attn

open Idealize.ShloMosaic Idealize.ShloMosaic.ValueIdx
open scoped BigOperators

/-- The scale `2⁻⁵ = 1/32 = 1/√1024`, as the binary32 word that spells it. -/
abbrev scaleW : EReal := Ideal.ofBits .f32 0x3D000000#32
/-- `−∞`, as the binary32 word that spells it: where a row's maximum is folded from. -/
abbrev negInfW : EReal := Ideal.ofBits .f32 0xFF800000#32

/-- A row `r` times a `1024 × 1024` weight: entry `e` of the projected row. -/
def projRow (r : Fin 1024 → EReal) (w : Fin 1024 → Fin 1024 → EReal) (e : Fin 1024) : EReal :=
  ∑ d : Fin 1024, r d * w d e

/-- The scaled score of a projected query row against key `m`. -/
def scoreRow (qp : Fin 1024 → EReal) (key : Fin 2048 → Fin 1024 → EReal) (m : Fin 2048) : EReal :=
  (∑ e : Fin 1024, qp e * key m e) * scaleW

/-- The row's maximum, folded from `−∞`. -/
def maxRow (s : Fin 2048 → EReal) : EReal :=
  (Finset.univ : Finset (Fin 2048)).fold max negInfW s

/-- The softmax numerator at key `m`. -/
def numRow (s : Fin 2048 → EReal) (m : Fin 2048) : EReal := Ideal.exp (s m - maxRow s)

/-- The softmax denominator. -/
def denRow (s : Fin 2048 → EReal) : EReal := ∑ m : Fin 2048, numRow s m

/-- The softmax weights of a score row against the values, at output feature `f`. -/
def mixRow (s : Fin 2048 → EReal) (val : Fin 2048 → Fin 1024 → EReal) (f : Fin 1024) : EReal :=
  ∑ m : Fin 2048, Ideal.div (numRow s m) (denRow s) * val m f

/-- One query row's attention output at feature `f`: the row is projected by `wq`, scored against the keys,
    normalised by the softmax, and mixed over the values. -/
def rowAttn (qrow : Fin 1024 → EReal) (wq : Fin 1024 → Fin 1024 → EReal)
    (key val : Fin 2048 → Fin 1024 → EReal) (f : Fin 1024) : EReal :=
  mixRow (scoreRow (projRow qrow wq) key) val f

/-- The argument arrays' types. -/
abbrev T3 : Type := FVec Ideal ⟨3, ![8, 2048, 1024]⟩ .f32
abbrev T2 : Type := FVec Ideal ⟨2, ![1024, 1024]⟩ .f32

/-- The projected key `kp(b,m,e)`. -/
def kproj (y : T3) (wk : T2) (b : Fin 8) (m : Fin 2048) (e : Fin 1024) : EReal :=
  projRow (fun d => y (ix3 b m d)) (fun d e' => wk (ix2 d e')) e

/-- The value `vp(b,m,f)`: the value weight applied to the projected key. -/
def vproj (y : T3) (wk wv : T2) (b : Fin 8) (m : Fin 2048) (f : Fin 1024) : EReal :=
  projRow (kproj y wk b m) (fun e f' => wv (ix2 e f')) f

/-- The attention output at batch `b`, query position `n`, feature `f`. -/
def outAt (q y : T3) (wq wk wv : T2) (b : Fin 8) (n : Fin 2048) (f : Fin 1024) : EReal :=
  rowAttn (fun d => q (ix3 b n d)) (fun d e => wq (ix2 d e)) (kproj y wk b) (vproj y wk wv b) f

/-- The whole result array. -/
def out (q y : T3) (wq wk wv : T2) : T3 := fun i =>
  outAt q y wq wk wv ⟨(i 0).val, (i 0).isLt⟩ ⟨(i 1).val, (i 1).isLt⟩ ⟨(i 2).val, (i 2).isLt⟩

theorem out_ix3 (q y : T3) (wq wk wv : T2) (b : Fin 8) (n : Fin 2048) (f : Fin 1024) :
    out q y wq wk wv (ix3 b n f) = outAt q y wq wk wv b n f := rfl

end Cert.Attn

end
-- ==== Proof.AttnConsts.lean ====
/-
  The three binary32 words the two programs spell, as the extended reals they denote: the scale 2⁻⁵, the
  reference's 1024 under its square root, and −∞; and the one arithmetic fact that joins the two spellings of the
  scale: dividing by √1024 is multiplying by 2⁻⁵, on every extended real.
-/
import Idealize.ShloMosaic.PureOps.Ideal
import Idealize.ShloMosaic.PureOps.Ideal.Laws
import proofs.«162966_j58171037057444_2_alg».proof.Proof.AttnSpec

noncomputable section

namespace Cert.Attn

open Idealize.ShloMosaic

/-- `0x3D000000` is `2⁻⁵ = 1/32`. -/
theorem scaleW_eq : scaleW = ((1 / 32 : ℝ) : EReal) := by
  show Ideal.ofBits .f32 0x3D000000#32 = _
  simp [Ideal.ofBits, Ideal.ieee, -EReal.coe_mul]; norm_num

/-- `0x44800000` is `1024`. -/
theorem ofBits_1024 : Ideal.ofBits .f32 0x44800000#32 = ((1024 : ℝ) : EReal) := by
  simp [Ideal.ofBits, Ideal.ieee, -EReal.coe_mul]; norm_num

/-- `0xFF800000` is `−∞`, the least extended real. -/
theorem negInfW_eq : negInfW = ⊥ := by
  show Ideal.ofBits .f32 0xFF800000#32 = _
  simp [Ideal.ofBits, Ideal.ieee]

/-- `0x00000000` is `0`. -/
theorem ofBits_zero : Ideal.ofBits .f32 0x00000000#32 = 0 := Ideal.ofBits_zero_f32

/-- `√1024 = 32`. -/
theorem sqrt_1024 : Ideal.sqrt ((1024 : ℝ) : EReal) = ((32 : ℝ) : EReal) := by
  rw [Ideal.sqrt_coe, if_neg (by norm_num)]
  congr 1
  rw [show (1024 : ℝ) = 32 ^ 2 by norm_num]
  exact Real.sqrt_sq (by norm_num)

/-- Dividing by the square root of the word `1024.0` is multiplying by the word `2⁻⁵`. -/
theorem div_sqrt_1024 (x : EReal) :
    Ideal.div x (Ideal.sqrt (Ideal.ofBits .f32 0x44800000#32)) = x * scaleW := by
  rw [ofBits_1024, sqrt_1024, Ideal.div_coe (by norm_num : (32 : ℝ) ≠ 0), scaleW_eq]

/-- Taking the maximum with `−∞` once more changes nothing. -/
theorem max_negInfW (x : EReal) : max negInfW x = x := by
  rw [negInfW_eq]; exact max_eq_right bot_le

end Cert.Attn

end
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.PayloadsProj.lean ====
/-
  The key/value projection body's two stored values, read at one entry.

  The first is the block of `y` times the key weight: entry `(p, e)` is `∑ d, y(p,d) · Wk(d,e)`.  The second is that
  product times the value weight: entry `(p, f)` is `∑ e, (∑ d, y(p,d) · Wk(d,e)) · Wv(e,f)`.  Over the extended
  reals the narrowing conversions are the identity, a shape cast to the same shape is the identity, and a matrix
  product into a zero accumulator is the sum over the shared axis of the operands' products.
-/
import proofs.«162966_j58171037057444_2_alg».proof.Proof.Gen.KernelIdeal.Skeleton
import proofs.«162966_j58171037057444_2_alg».proof.Proof.AttnSpec
import proofs.«162966_j58171037057444_2_alg».proof.Proof.AttnConsts
import proofs.«162966_j58171037057444_2_alg».proof.Proof.LibMatmulPlain
import Idealize.ShloMosaic.Lib.ValueIdx
import Idealize.ShloMosaic.Lib.Pipeline.Value
import Idealize.ShloMosaic.PureOps.Ideal.Laws

noncomputable section

namespace Cert.Attn.Pay

open Cert.KernelIdeal Cert.KernelIdeal.Gen Cert.Attn Idealize.ShloMosaic Idealize.ShloMosaic.ValueIdx
open Idealize.ShloMosaic.MatmulPlain
open scoped BigOperators

/-- The square product's dimension numbers are those of a plain matrix product. -/
theorem plain_sq : IsPlain dot_S1024x1024_S1024x1024_S1024x1024_1_0_0_1_n_n := ⟨rfl, rfl, rfl, rfl, rfl, rfl⟩

/-- The projected block at `(p, e)`: row `p` of the block against column `e` of the weight. -/
theorem kproj_pay (x0 : Vec Ideal S1024x1024 .f32) (x1 : Vec Ideal S1024x1024 .bf16) (p e : Fin 1024) :
    k0_pay1 (F := Ideal) x0 x1 (ix2 p e) = projRow (fun d => x0 (ix2 p d)) (fun d e' => x1 (ix2 d e')) e := by
  unfold k0_pay1
  refine (matmul_zero_apply plain_sq none _ _ p e).trans ?_
  unfold projRow
  refine Finset.sum_congr rfl fun d _ => ?_
  rw [shapeCast_self, shapeCast_self]
  rfl

/-- The value block at `(p, f)`: the projected row `p` against column `f` of the value weight. -/
theorem vproj_pay (x0 : Vec Ideal S1024x1024 .f32) (x1 x2 : Vec Ideal S1024x1024 .bf16) (p f : Fin 1024) :
    k0_pay2 (F := Ideal) x0 x1 x2 (ix2 p f)
      = projRow (projRow (fun d => x0 (ix2 p d)) (fun d e' => x1 (ix2 d e'))) (fun e f' => x2 (ix2 e f')) f := by
  unfold k0_pay2
  refine (matmul_zero_apply plain_sq none _ _ p f).trans ?_
  show (∑ e : Fin 1024, _) = projRow _ _ f
  unfold projRow
  refine Finset.sum_congr rfl fun e _ => ?_
  rw [shapeCast_self]
  exact congrArg (· * x2 (ix2 e f)) (kproj_pay x0 x1 p e)

end Cert.Attn.Pay

end
-- ==== Proof.ProjBlocks.lean ====
/-
  The projection region's two output arrays as whole-array functions of the arrays it reads.

  The region's grid has 16 points; point `t` reads rows `1024·t … 1024·t + 1023` of the reshaped `y` ([16384, 1024])
  and the two whole weights, and writes the same rows of the two outputs.  Row `r` of the first output is row `r`
  of `y` times the key weight, row `r` of the second is that product times the value weight: each depends on row
  `r` of `y` alone, so what point `t` writes back is block `t` of one function of the whole arrays, and the 16
  blocks cover the 16384 rows.
-/
import proofs.«162966_j58171037057444_2_alg».proof.Proof.Gen.KernelIdeal.Frame
import proofs.«162966_j58171037057444_2_alg».proof.Proof.AttnSpec
import proofs.«162966_j58171037057444_2_alg».proof.Proof.PayloadsProj
import Idealize.ShloMosaic.Lib.Pipeline.Value
import Idealize.ShloMosaic.Lib.ValueIdx

set_option maxRecDepth 16384

noncomputable section

namespace Cert.KernelIdeal.ProjValue

open Cert.KernelIdeal Cert.KernelIdeal.Gen Cert.Attn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The two functions -/

/-- Row `r` of the reshaped `y` times the key weight, at column `e`. -/
def keysAt (a : S16384x1024.Idx → EReal) (wk : S1024x1024.Idx → EReal) (r : Fin 16384) (e : Fin 1024) : EReal :=
  projRow (fun d => a (ix2 r d)) (fun d e' => wk (ix2 d e')) e

/-- That product times the value weight, at column `f`. -/
def valsAt (a : S16384x1024.Idx → EReal) (wk wv : S1024x1024.Idx → EReal) (r : Fin 16384) (f : Fin 1024) : EReal :=
  projRow (projRow (fun d => a (ix2 r d)) (fun d e' => wk (ix2 d e'))) (fun e f' => wv (ix2 e f')) f

/-- The projected keys as one array. -/
def keysOf (a : S16384x1024.Idx → EReal) (wk : S1024x1024.Idx → EReal) : S16384x1024.Idx → EReal := fun i =>
  keysAt a wk ⟨(i 0).val, (i 0).isLt⟩ ⟨(i 1).val, (i 1).isLt⟩

/-- The values as one array. -/
def valsOf (a : S16384x1024.Idx → EReal) (wk wv : S1024x1024.Idx → EReal) : S16384x1024.Idx → EReal := fun i =>
  valsAt a wk wv ⟨(i 0).val, (i 0).isLt⟩ ⟨(i 1).val, (i 1).isLt⟩

theorem keysOf_ix2 (a : S16384x1024.Idx → EReal) (wk : S1024x1024.Idx → EReal) (r : Fin 16384) (e : Fin 1024) :
    keysOf a wk (ix2 r e) = keysAt a wk r e := rfl

theorem valsOf_ix2 (a : S16384x1024.Idx → EReal) (wk wv : S1024x1024.Idx → EReal) (r : Fin 16384) (f : Fin 1024) :
    valsOf a wk wv (ix2 r f) = valsAt a wk wv r f := rfl

/-! ## The index maps over the grid -/

theorem hz2 : (![0, 0] : Fin 2 → Nat) = fun _ => 0 := funext fun a => by fin_cases a <;> rfl

/-- Point `t` reads and writes row block `t`; the weights' one block is block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 16 := lt_of_lt_of_eq t.isLt N_0

/-- The array row that row `p` of point `t`'s block is. -/
def rowOf (t : Fin cfg0.N) (p : Fin 1024) : Fin 16384 := ⟨t.val * 1024 + p.val, by have := point_lt t; omega⟩

/-! ## The blocks the body reads, as rows of the arrays -/

theorem read_y (c : Dev nD) (t : Fin cfg0.N) (p d : Fin 1024) :
    iblk0 V c 0 t (ix2 p d) = V c main_v3 (ix2 (rowOf t p) d) := by
  obtain ⟨e0, e1, -⟩ := idx_facts t
  show V c main_v3 (((cfg0.win 0).blk t).view.emb (ix2 p d)) = V c main_v3 (ix2 (rowOf t p) d)
  refine congrArg (V c main_v3) ?_
  funext a; apply Fin.ext
  match a with
  | ⟨0, _⟩ => show win0_0.index t (0 : Fin 2) * 1024 + 1 * p.val = t.val * 1024 + p.val; omega
  | ⟨1, _⟩ => show win0_0.index t (1 : Fin 2) * 1024 + 1 * d.val = d.val; omega

theorem read_wk (c : Dev nD) (t : Fin cfg0.N) (d e : Fin 1024) :
    iblk0 V c 1 t (ix2 d e) = V c main_v1 (ix2 d e) := by
  obtain ⟨-, -, e2, e3, -⟩ := idx_facts t
  show V c main_v1 (((cfg0.win 1).blk t).view.emb (ix2 d e)) = V c main_v1 (ix2 d e)
  refine congrArg (V c main_v1) ?_
  funext a; apply Fin.ext
  match a with
  | ⟨0, _⟩ => show win0_1.index t (0 : Fin 2) * 1024 + 1 * d.val = d.val; omega
  | ⟨1, _⟩ => show win0_1.index t (1 : Fin 2) * 1024 + 1 * e.val = e.val; omega

theorem read_wv (c : Dev nD) (t : Fin cfg0.N) (e f : Fin 1024) :
    iblk0 V c 2 t (ix2 e f) = V c main_v2 (ix2 e f) := by
  obtain ⟨-, -, -, -, e4, e5, -⟩ := idx_facts t
  show V c main_v2 (((cfg0.win 2).blk t).view.emb (ix2 e f)) = V c main_v2 (ix2 e f)
  refine congrArg (V c main_v2) ?_
  funext a; apply Fin.ext
  match a with
  | ⟨0, _⟩ => show win0_2.index t (0 : Fin 2) * 1024 + 1 * e.val = e.val; omega
  | ⟨1, _⟩ => show win0_2.index t (1 : Fin 2) * 1024 + 1 * f.val = f.val; omega

/-- Entry `(p, e)` of point `t`'s output block sits at row `rowOf t p`, column `e` of the first output array … -/
theorem emb_keys (t : Fin cfg0.N) (p e : Fin 1024) :
    ((cfg0.win 3).blk t).view.emb (ix2 p e) = ix2 (rowOf t p) e := by
  obtain ⟨-, -, -, -, -, -, e6, e7, -⟩ := idx_facts t
  funext a; apply Fin.ext
  match a with
  | ⟨0, _⟩ => show win0_3.index t (0 : Fin 2) * 1024 + 1 * p.val = t.val * 1024 + p.val; omega
  | ⟨1, _⟩ => show win0_3.index t (1 : Fin 2) * 1024 + 1 * e.val = e.val; omega

/-- … and of the second. -/
theorem emb_vals (t : Fin cfg0.N) (p f : Fin 1024) :
    ((cfg0.win 4).blk t).view.emb (ix2 p f) = ix2 (rowOf t p) f := by
  obtain ⟨-, -, -, -, -, -, -, -, e8, e9⟩ := idx_facts t
  funext a; apply Fin.ext
  match a with
  | ⟨0, _⟩ => show win0_4.index t (0 : Fin 2) * 1024 + 1 * p.val = t.val * 1024 + p.val; omega
  | ⟨1, _⟩ => show win0_4.index t (1 : Fin 2) * 1024 + 1 * f.val = f.val; omega

/-! ## What a point writes back -/

/-- What point `t` writes back to the first output is block `t` of the projected keys. -/
theorem flushed_keys (c : Dev nD) (t : Fin cfg0.N) :
    (dat0 V c).flushed 3 t = ((cfg0.win 3).blk t).view.read (Elt Ideal) (keysOf (V c main_v3) (V c main_v1)) := by
  show (cfg0.win 3).cut (grid0.coords t) ((dat0 V c).after 3 t) = _
  rw [after0_3]
  unfold out0_3
  rw [View.canon_unit_zero hz2]
  simp only [View.ld_unit_zero (S := S1024x1024) hz2]
  funext j
  obtain ⟨p, e, rfl⟩ : ∃ (p e : Fin 1024), j = ix2 p e := ⟨j 0, j 1, eq_ix2 j⟩
  refine (Cert.Attn.Pay.kproj_pay (iblk0 V c 0 t) (iblk0 V c 1 t) p e).trans ?_
  show _ = keysOf (V c main_v3) (V c main_v1) (((cfg0.win 3).blk t).view.emb (ix2 p e))
  rw [emb_keys t p e, keysOf_ix2]
  unfold keysAt
  rw [show (fun d => iblk0 V c 0 t (ix2 p d)) = fun d => V c main_v3 (ix2 (rowOf t p) d) from funext (read_y V c t p),
    show (fun d e' => iblk0 V c 1 t (ix2 d e')) = fun d e' => V c main_v1 (ix2 d e') from funext fun d => funext (read_wk V c t d)]

/-- What point `t` writes back to the second output is block `t` of the values. -/
theorem flushed_vals (c : Dev nD) (t : Fin cfg0.N) :
    (dat0 V c).flushed 4 t = ((cfg0.win 4).blk t).view.read (Elt Ideal) (valsOf (V c main_v3) (V c main_v1) (V c main_v2)) := by
  show (cfg0.win 4).cut (grid0.coords t) ((dat0 V c).after 4 t) = _
  rw [after0_4]
  unfold out0_4
  rw [View.canon_unit_zero hz2]
  simp only [View.ld_unit_zero (S := S1024x1024) hz2]
  funext j
  obtain ⟨p, f, rfl⟩ : ∃ (p f : Fin 1024), j = ix2 p f := ⟨j 0, j 1, eq_ix2 j⟩
  refine (Cert.Attn.Pay.vproj_pay (iblk0 V c 0 t) (iblk0 V c 1 t) (iblk0 V c 2 t) p f).trans ?_
  show _ = valsOf (V c main_v3) (V c main_v1) (V c main_v2) (((cfg0.win 4).blk t).view.emb (ix2 p f))
  rw [emb_vals t p f, valsOf_ix2]
  unfold valsAt
  rw [show (fun d => iblk0 V c 0 t (ix2 p d)) = fun d => V c main_v3 (ix2 (rowOf t p) d) from funext (read_y V c t p),
    show (fun d e' => iblk0 V c 1 t (ix2 d e')) = fun d e' => V c main_v1 (ix2 d e') from funext fun d => funext (read_wk V c t d),
    show (fun e f' => iblk0 V c 2 t (ix2 e f')) = fun e f' => V c main_v2 (ix2 e f') from funext fun e => funext (read_wv V c t e)]

/-! ## The blocks cover the arrays -/

theorem mem_blk_keys (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v4_0).slice (win0_3.rect t)).set ↔ _
  rw [View.set_slice_whole, Rect.mem_set_unit]
  exact Iff.rfl

theorem mem_blk_vals (t : Fin cfg0.N) (i : S16384x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v4_1).slice (win0_4.rect t)).set ↔ _
  rw [View.set_slice_whole, Rect.mem_set_unit]
  exact Iff.rfl

/-- The point that covers row `r` is `r / 1024`. -/
def pointOf (i : S16384x1024.Idx) : Fin cfg0.N :=
  ⟨(i 0).val / 1024, by have h : (i 0).val < 16384 := (i 0).isLt; rw [show cfg0.N = 16 from N_0]; omega⟩

theorem cover_keys (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have ht : (pointOf i).val = (i 0).val / 1024 := rfl
  obtain ⟨-, -, -, -, -, -, e6, e7, -⟩ := idx_facts (pointOf i)
  refine ⟨pointOf i, flush0_3 _, ?_⟩
  rw [mem_blk_keys]
  intro a
  match a with
  | ⟨0, _⟩ => show win0_3.index (pointOf i) (0 : Fin 2) * 1024 ≤ (i 0).val ∧ (i 0).val < win0_3.index (pointOf i) (0 : Fin 2) * 1024 + 1024; omega
  | ⟨1, _⟩ => show win0_3.index (pointOf i) (1 : Fin 2) * 1024 ≤ (i 1).val ∧ (i 1).val < win0_3.index (pointOf i) (1 : Fin 2) * 1024 + 1024; omega

theorem cover_vals (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have ht : (pointOf i).val = (i 0).val / 1024 := rfl
  obtain ⟨-, -, -, -, -, -, -, -, e8, e9⟩ := idx_facts (pointOf i)
  refine ⟨pointOf i, flush0_4 _, ?_⟩
  rw [mem_blk_vals]
  intro a
  match a with
  | ⟨0, _⟩ => show win0_4.index (pointOf i) (0 : Fin 2) * 1024 ≤ (i 0).val ∧ (i 0).val < win0_4.index (pointOf i) (0 : Fin 2) * 1024 + 1024; omega
  | ⟨1, _⟩ => show win0_4.index (pointOf i) (1 : Fin 2) * 1024 ≤ (i 1).val ∧ (i 1).val < win0_4.index (pointOf i) (1 : Fin 2) * 1024 + 1024; omega

/-! ## The arrays after the region -/

/-- After the last point the first output array is the projected keys of the arrays the region was entered with. -/
theorem final_keys (c : Dev nD) : (dat0 V c).arrAt 3 cfg0.N = keysOf (V c main_v3) (V c main_v1) :=
  (dat0 V c).arrAt_eq_of_cover 3 _ (fun t _ => flushed_keys V c t) cover_keys

/-- … and the second the values. -/
theorem final_vals (c : Dev nD) : (dat0 V c).arrAt 4 cfg0.N = valsOf (V c main_v3) (V c main_v1) (V c main_v2) :=
  (dat0 V c).arrAt_eq_of_cover 4 _ (fun t _ => flushed_vals V c t) cover_vals

end Cert.KernelIdeal.ProjValue

end
-- ==== Proof.LibColumnLayout.lean ====
/-
  Two layout operations that only move indices, read at an index given by its coordinates: a vector cast to a
  one-column matrix, and a one-column matrix broadcast along its rows.  Together they carry a per-row quantity
  (a row maximum, a row sum, its reciprocal) kept as a `[a, 1]` column back onto every entry of its row.
-/
import Idealize.ShloMosaic.Lib.ValueIdx
import Idealize.ShloMosaic.Lib.Pipeline.Value

noncomputable section

namespace Cert.ColumnLayout

open Idealize.ShloMosaic Idealize.ShloMosaic.ValueIdx

/-- A vector cast to a one-column matrix reads, at `(i, 0)`, the vector at `i`. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A one-column matrix broadcast along its rows reads, at `(i, j)`, the column at `(i, 0)`. -/
theorem broadcastTo_a1_ab_apply {a b : ℕ} {α : Type} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      have := i.isLt
      split <;> omega
    | ⟨1, _⟩ => by
      show 0 = if (1 : ℕ) = 1 then 0 else j.val
      rw [if_pos rfl])

end Cert.ColumnLayout

end
-- ==== Proof.PayloadsAttn.lean ====
/-
  The attention body's stored value, read at one entry.

  For a 256-row block of queries against one batch's 2048 keys and values, the body computes, for row `p`:
    qp(e)  = ∑ d, q(p,d) · Wq(d,e)                    the projected query row
    s(m)   = (∑ e, qp(e) · K(m,e)) · 2⁻⁵              the scaled score against key `m` (the keys are transposed first)
    mx     = the maximum over `m` of s(m), folded from −∞
    n(m)   = exp (s(m) − mx),   l = ∑ m, n(m)
    out(f) = ∑ m, (n(m) / l) · V(m,f)
  Every operation that only moves indices (a cast that drops or adds a unit axis, the transpose, a row quantity cast
  to a column and broadcast back along its row) is read at an index; the narrowing conversions are the identity over
  the extended reals; a matrix product into a zero accumulator is the sum over the shared axis; a reduction over the
  key axis is the sum, or the fold of `max`, over that axis's coordinates.  The lemmas below do this one operation at
  a time, from the inside out, over arbitrary vectors of the literal shapes; the last theorem chains them.
-/
import proofs.«162966_j58171037057444_2_alg».proof.Proof.Gen.KernelIdeal.Skeleton
import proofs.«162966_j58171037057444_2_alg».proof.Proof.AttnSpec
import proofs.«162966_j58171037057444_2_alg».proof.Proof.AttnConsts
import proofs.«162966_j58171037057444_2_alg».proof.Proof.LibMatmulPlain
import proofs.«162966_j58171037057444_2_alg».proof.Proof.LibColumnLayout
import Idealize.ShloMosaic.Lib.ValueIdx
import Idealize.ShloMosaic.Lib.Pipeline.Value
import Idealize.ShloMosaic.Lib.ValueLayout
import Idealize.ShloMosaic.PureOps.Ideal.Laws

noncomputable section

namespace Cert.Attn.Pay

open Cert.KernelIdeal Cert.KernelIdeal.Gen Cert.Attn Idealize.ShloMosaic Idealize.ShloMosaic.ValueIdx
open Idealize.ShloMosaic.MatmulPlain
open scoped BigOperators

/-- The three products of the body are plain matrix products. -/
theorem plain_q : IsPlain dot_S256x1024_S1024x1024_S256x1024_1_0_0_1_n_n := ⟨rfl, rfl, rfl, rfl, rfl, rfl⟩
theorem plain_s : IsPlain dot_S256x1024_S1024x2048_S256x2048_1_0_0_1_n_n := ⟨rfl, rfl, rfl, rfl, rfl, rfl⟩
theorem plain_o : IsPlain dot_S256x2048_S2048x1024_S256x1024_1_0_0_1_n_n := ⟨rfl, rfl, rfl, rfl, rfl, rfl⟩

/-- Narrowing a binary32 vector to bfloat16 changes no entry over the extended reals. -/
theorem trunc_apply {s : Shape} (a : FVec Ideal s .f32) (h : FTy.bits .bf16 < FTy.bits .f32) (i : s.Idx) :
    truncf (F := Ideal) .bf16 a h i = a i := rfl

/-! ## A reduction over the key axis, read at a row -/

/-- The index of row `p` with key coordinate `m` inserted is `(p, m)`. -/
theorem lift_row (h : S256x2048.Reduces [1] S256) (p : Fin 256) (m : Fin 2048) :
    h.lift (ix1 p) m = ix2 p m := by
  funext a
  apply Fin.ext
  match a with
  | ⟨0, _⟩ => rfl
  | ⟨1, _⟩ => rfl

/-- The row maximum of a score block at row `p`: the fold of `max` from `−∞` over the row. -/
theorem rowmax_apply (s : FVec Ideal S256x2048 .f32) (h : S256x2048.Reduces [1] S256) (hφ : FKind.Formats .f32)
    (hacc : (0xFF800000#32 : BitVec 32) = FKind.maximumf.neutral .f32 hφ) (p : Fin 256) :
    multiReduction (F := Ideal) .maximumf [1] S256 s 0xFF800000#32 h hφ hacc (ix1 p)
      = maxRow (fun m => s (ix2 p m)) := by
  refine (Ideal.multiReduction_maximumf_single s 0xFF800000#32 h hφ hacc (ix1 p)).trans ?_
  unfold maxRow
  refine congrArg (fun g : Fin 2048 → EReal => Finset.fold max negInfW g Finset.univ) ?_
  funext m
  exact congrArg s (lift_row h p m)

/-- The row sum of a block at row `p`: the sum over the row. -/
theorem rowsum_apply (e : FVec Ideal S256x2048 .f32) (h : S256x2048.Reduces [1] S256) (hφ : FKind.Formats .f32)
    (hacc : (0x00000000#32 : BitVec 32) = FKind.add.neutral .f32 hφ) (p : Fin 256) :
    multiReduction (F := Ideal) .add [1] S256 e 0x00000000#32 h hφ hacc (ix1 p) = ∑ m : Fin 2048, e (ix2 p m) := by
  refine (Ideal.multiReduction_add_single e 0x00000000#32 h hφ hacc (ix1 p)).trans ?_
  show (∑ m : Fin 2048, e (h.lift (ix1 p) m)) = _
  exact Finset.sum_congr rfl fun m _ => congrArg e (lift_row h p m)

/-- A per-row quantity cast to a column and broadcast along the rows reads, at `(p, m)`, the quantity of row `p`. -/
theorem column_apply (v : FVec Ideal S256 .f32) (hc : S256.ShapeCasts S256x1) (hb : S256x1.Broadcasts S256x2048)
    (p : Fin 256) (m : Fin 2048) :
    broadcastTo S256x2048 (shapeCast S256x1 v hc) hb (ix2 p m) = v (ix1 p) :=
  (Cert.ColumnLayout.broadcastTo_a1_ab_apply _ hb p m).trans (Cert.ColumnLayout.shapeCast_a_a1_apply v hc p 0)

/-! ## The row softmax of a score block -/

/-- The softmax numerators as the body computes them from a score block: `exp` of the block minus its row maxima. -/
def numV (s : FVec Ideal S256x2048 .f32) (h : S256x2048.Reduces [1] S256) (hφ : FKind.Formats .f32)
    (hacc : (0xFF800000#32 : BitVec 32) = FKind.maximumf.neutral .f32 hφ)
    (hc : S256.ShapeCasts S256x1) (hb : S256x1.Broadcasts S256x2048) : FVec Ideal S256x2048 .f32 :=
  exp (subf s (broadcastTo S256x2048
    (shapeCast S256x1 (multiReduction (F := Ideal) .maximumf [1] S256 s 0xFF800000#32 h hφ hacc) hc) hb))

/-- The numerator at `(p, m)` is the numerator of row `p`'s scores at key `m`. -/
theorem numV_apply (s : FVec Ideal S256x2048 .f32) (h : S256x2048.Reduces [1] S256) (hφ : FKind.Formats .f32)
    (hacc : (0xFF800000#32 : BitVec 32) = FKind.maximumf.neutral .f32 hφ)
    (hc : S256.ShapeCasts S256x1) (hb : S256x1.Broadcasts S256x2048) (p : Fin 256) (m : Fin 2048) :
    numV s h hφ hacc hc hb (ix2 p m) = numRow (fun m' => s (ix2 p m')) m :=
  congrArg (fun t => Ideal.exp (s (ix2 p m) - t))
    ((column_apply _ hc hb p m).trans (rowmax_apply s h hφ hacc p))

/-- The softmax weight at `(p, m)`: the numerator over the row's sum of numerators. -/
theorem weight_apply (s : FVec Ideal S256x2048 .f32) (h : S256x2048.Reduces [1] S256) (hφ : FKind.Formats .f32)
    (hacc : (0xFF800000#32 : BitVec 32) = FKind.maximumf.neutral .f32 hφ)
    (hacc0 : (0x00000000#32 : BitVec 32) = FKind.add.neutral .f32 hφ)
    (hc : S256.ShapeCasts S256x1) (hb : S256x1.Broadcasts S256x2048) (p : Fin 256) (m : Fin 2048) :
    divf (numV s h hφ hacc hc hb)
        (broadcastTo S256x2048 (shapeCast S256x1
          (multiReduction (F := Ideal) .add [1] S256 (numV s h hφ hacc hc hb) 0x00000000#32 h hφ hacc0) hc) hb) (ix2 p m)
      = Ideal.div (numRow (fun m' => s (ix2 p m')) m) (denRow (fun m' => s (ix2 p m'))) := by
  refine (divf_apply _ _ _).trans ?_
  refine congrArg₂ Ideal.div (numV_apply s h hφ hacc hc hb p m) ?_
  refine (column_apply _ hc hb p m).trans ?_
  refine (rowsum_apply _ h hφ hacc0 p).trans ?_
  unfold denRow
  exact Finset.sum_congr rfl fun m' _ => numV_apply s h hφ hacc hc hb p m'

/-! ## The scaled scores -/

/-- The projected query block at `(p, e)`: row `p` of the query block against column `e` of the query weight. -/
theorem qproj_apply (x0 : FVec Ideal S1x256x1024 .f32) (x1 : FVec Ideal S1024x1024 .bf16)
    (hb16 : FTy.bits .bf16 < FTy.bits .f32) (h1 : S1x256x1024.ShapeCasts S256x1024)
    (h2 : S1024x1024.ShapeCasts S1024x1024) (p : Fin 256) (e : Fin 1024) :
    matmul (F := Ideal) dot_S256x1024_S1024x1024_S256x1024_1_0_0_1_n_n none
        (truncf .bf16 (shapeCast S256x1024 x0 h1) hb16) (shapeCast S1024x1024 x1 h2)
        (constant S256x1024 .f32 0x00000000#32) (ix2 p e)
      = projRow (fun d => x0 (ix3 (0 : Fin 1) p d)) (fun d e' => x1 (ix2 d e')) e := by
  refine (matmul_zero_apply plain_q none _ _ p e).trans ?_
  unfold projRow
  refine Finset.sum_congr rfl fun d _ => ?_
  refine congrArg₂ (· * ·) ?_ ?_
  · exact shapeCast_1ab_ab_apply x0 h1 p d
  · rw [shapeCast_self]

/-- The scaled score block at `(p, m)`: the projected query row `p` against key `m`, times `2⁻⁵`. -/
theorem score_apply (x0 : FVec Ideal S1x256x1024 .f32) (x1 : FVec Ideal S1024x1024 .bf16)
    (x2 : FVec Ideal S1x2048x1024 .bf16)
    (hb16 : FTy.bits .bf16 < FTy.bits .f32) (h1 : S1x256x1024.ShapeCasts S256x1024)
    (h2 : S1024x1024.ShapeCasts S1024x1024) (h3 : S1x2048x1024.ShapeCasts S2048x1024)
    (ht : S2048x1024.Transposes [1, 0] S1024x2048) (p : Fin 256) (m : Fin 2048) :
    mulf (matmul (F := Ideal) dot_S256x1024_S1024x2048_S256x2048_1_0_0_1_n_n none
          (truncf .bf16
            (matmul (F := Ideal) dot_S256x1024_S1024x1024_S256x1024_1_0_0_1_n_n none
              (truncf .bf16 (shapeCast S256x1024 x0 h1) hb16) (shapeCast S1024x1024 x1 h2)
              (constant S256x1024 .f32 0x00000000#32)) hb16)
          (transpose S1024x2048 [1, 0] (shapeCast S2048x1024 x2 h3) ht)
          (constant S256x2048 .f32 0x00000000#32))
        (broadcast S256x2048 (Scalar.ofBits (F := Ideal) .f32 0x3D000000#32)) (ix2 p m)
      = scoreRow (projRow (fun d => x0 (ix3 (0 : Fin 1) p d)) (fun d e => x1 (ix2 d e)))
          (fun m' e => x2 (ix3 (0 : Fin 1) m' e)) m := by
  refine (mulf_apply _ _ _).trans ?_
  unfold scoreRow
  refine congrArg₂ (· * ·) ?_ rfl
  refine (matmul_zero_apply plain_s none _ _ p m).trans ?_
  refine Finset.sum_congr rfl fun e _ => ?_
  refine congrArg₂ (· * ·) ?_ ?_
  · exact (trunc_apply _ hb16 _).trans (qproj_apply x0 x1 hb16 h1 h2 p e)
  · exact (transpose_ix2_apply _ ht e m).trans (shapeCast_1ab_ab_apply x2 h3 m e)

/-! ## The body's stored value -/

/-- The attention of query row `p` at output feature `f`. -/
theorem attn_pay (x0 : Vec Ideal S1x256x1024 .f32) (x1 : Vec Ideal S1024x1024 .bf16)
    (x2 x3 : Vec Ideal S1x2048x1024 .bf16) (p : Fin 256) (f : Fin 1024) :
    k1_pay1 (F := Ideal) x0 x1 x2 x3 (ix3 (0 : Fin 1) p f)
      = rowAttn (fun d => x0 (ix3 (0 : Fin 1) p d)) (fun d e => x1 (ix2 d e))
          (fun m e => x2 (ix3 (0 : Fin 1) m e)) (fun m g => x3 (ix3 (0 : Fin 1) m g)) f := by
  unfold k1_pay1
  refine (shapeCast_ab_1ab_apply _ _ (0 : Fin 1) p f).trans ?_
  refine (matmul_zero_apply plain_o none _ _ p f).trans ?_
  unfold rowAttn mixRow
  refine Finset.sum_congr rfl fun m _ => ?_
  refine congrArg₂ (· * ·) ?_ (shapeCast_1ab_ab_apply x3 _ m f)
  refine (trunc_apply _ _ _).trans ?_
  refine (weight_apply _ _ _ _ _ _ _ p m).trans ?_
  refine congrArg (fun S : Fin 2048 → EReal => Ideal.div (numRow S m) (denRow S)) (funext fun m' => ?_)
  exact score_apply x0 x1 x2 _ _ _ _ _ p m'

end Cert.Attn.Pay

end
-- ==== Proof.AttnBlocks.lean ====
/-
  The attention region's output array as one whole-array function of the arrays it reads.

  The region's grid has 8 × 8 points; point `t` handles batch `t / 8` and query rows `256·(t % 8) … 256·(t % 8) + 255`:
  it reads those rows of `q`, the whole query weight, and ALL 2048 keys and values of that batch, and writes the same
  rows of the result.  A result row depends on its own query row and on its batch's keys and values alone, so what
  point `t` writes back is block `t` of one function of the whole arrays, and the 64 blocks cover the result.
-/
import proofs.«162966_j58171037057444_2_alg».proof.Proof.Gen.KernelIdeal.Frame
import proofs.«162966_j58171037057444_2_alg».proof.Proof.AttnSpec
import proofs.«162966_j58171037057444_2_alg».proof.Proof.PayloadsAttn
import Idealize.ShloMosaic.Lib.Pipeline.Value
import Idealize.ShloMosaic.Lib.ValueIdx

set_option maxRecDepth 16384

noncomputable section

namespace Cert.KernelIdeal.AttnValue

open Cert.KernelIdeal Cert.KernelIdeal.Gen Cert.Attn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The function -/

/-- Batch `b`, query row `n`, feature `f`: the row's attention over the batch's keys and values. -/
def attnAt (a0 : S8x2048x1024.Idx → EReal) (wq : S1024x1024.Idx → EReal) (k v : S8x2048x1024.Idx → EReal)
    (b : Fin 8) (n : Fin 2048) (f : Fin 1024) : EReal :=
  rowAttn (fun d => a0 (ix3 b n d)) (fun d e => wq (ix2 d e)) (fun m e => k (ix3 b m e)) (fun m g => v (ix3 b m g)) f

/-- The result as one array. -/
def attnOf (a0 : S8x2048x1024.Idx → EReal) (wq : S1024x1024.Idx → EReal) (k v : S8x2048x1024.Idx → EReal) :
    S8x2048x1024.Idx → EReal := fun i =>
  attnAt a0 wq k v ⟨(i 0).val, (i 0).isLt⟩ ⟨(i 1).val, (i 1).isLt⟩ ⟨(i 2).val, (i 2).isLt⟩

theorem attnOf_ix3 (a0 : S8x2048x1024.Idx → EReal) (wq : S1024x1024.Idx → EReal) (k v : S8x2048x1024.Idx → EReal)
    (b : Fin 8) (n : Fin 2048) (f : Fin 1024) : attnOf a0 wq k v (ix3 b n f) = attnAt a0 wq k v b n f := rfl

/-! ## The index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl

/-- Point `t` reads and writes query block `(t / 8, t % 8)`, reads key and value block `t / 8`, and the weight's
    one block. -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 2) = 0 ∧ win1_1.index t (1 : Fin 2) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = 0 ∧ win1_3.index t (2 : Fin 3) = 0
    ∧ win1_4.index t (0 : Fin 3) = t.val / 8 ∧ win1_4.index t (1 : Fin 3) = t.val % 8 ∧ win1_4.index t (2 : Fin 3) = 0 :=
  (by decide +kernel : ∀ t : Fin grid1.N, _)

theorem point_lt (t : Fin cfg1.N) : t.val < 64 := lt_of_lt_of_eq t.isLt N_1

/-- The batch point `t` handles … -/
def batchOf (t : Fin cfg1.N) : Fin 8 := ⟨t.val / 8, by have := point_lt t; omega⟩
/-- … and the array row that row `p` of its query block is. -/
def rowOf (t : Fin cfg1.N) (p : Fin 256) : Fin 2048 := ⟨t.val % 8 * 256 + p.val, by have := point_lt t; omega⟩

/-! ## The blocks the body reads, as rows of the arrays -/

theorem read_q (c : Dev nD) (t : Fin cfg1.N) (p : Fin 256) (d : Fin 1024) :
    iblk1 V c 0 t (ix3 (0 : Fin 1) p d) = V c main_arg0 (ix3 (batchOf t) (rowOf t p) d) := by
  obtain ⟨e0, e1, e2, -⟩ := idx_facts t
  show V c main_arg0 (((cfg1.win 0).blk t).view.emb (ix3 (0 : Fin 1) p d)) = V c main_arg0 (ix3 (batchOf t) (rowOf t p) d)
  refine congrArg (V c main_arg0) ?_
  funext a; apply Fin.ext
  match a with
  | ⟨0, _⟩ => show win1_0.index t (0 : Fin 3) * 1 + 1 * 0 = t.val / 8; omega
  | ⟨1, _⟩ => show win1_0.index t (1 : Fin 3) * 256 + 1 * p.val = t.val % 8 * 256 + p.val; omega
  | ⟨2, _⟩ => show win1_0.index t (2 : Fin 3) * 1024 + 1 * d.val = d.val; omega

theorem read_wq (c : Dev nD) (t : Fin cfg1.N) (d e : Fin 1024) :
    iblk1 V c 1 t (ix2 d e) = V c main_v0 (ix2 d e) := by
  obtain ⟨-, -, -, e3, e4, -⟩ := idx_facts t
  show V c main_v0 (((cfg1.win 1).blk t).view.emb (ix2 d e)) = V c main_v0 (ix2 d e)
  refine congrArg (V c main_v0) ?_
  funext a; apply Fin.ext
  match a with
  | ⟨0, _⟩ => show win1_1.index t (0 : Fin 2) * 1024 + 1 * d.val = d.val; omega
  | ⟨1, _⟩ => show win1_1.index t (1 : Fin 2) * 1024 + 1 * e.val = e.val; omega

theorem read_k (c : Dev nD) (t : Fin cfg1.N) (mm : Fin 2048) (e : Fin 1024) :
    iblk1 V c 2 t (ix3 (0 : Fin 1) mm e) = V c main_v5 (ix3 (batchOf t) mm e) := by
  obtain ⟨-, -, -, -, -, e5, e6, e7, -⟩ := idx_facts t
  show V c main_v5 (((cfg1.win 2).blk t).view.emb (ix3 (0 : Fin 1) mm e)) = V c main_v5 (ix3 (batchOf t) mm e)
  refine congrArg (V c main_v5) ?_
  funext a; apply Fin.ext
  match a with
  | ⟨0, _⟩ => show win1_2.index t (0 : Fin 3) * 1 + 1 * 0 = t.val / 8; omega
  | ⟨1, _⟩ => show win1_2.index t (1 : Fin 3) * 2048 + 1 * mm.val = mm.val; omega
  | ⟨2, _⟩ => show win1_2.index t (2 : Fin 3) * 1024 + 1 * e.val = e.val; omega

theorem read_v (c : Dev nD) (t : Fin cfg1.N) (mm : Fin 2048) (g : Fin 1024) :
    iblk1 V c 3 t (ix3 (0 : Fin 1) mm g) = V c main_v6 (ix3 (batchOf t) mm g) := by
  obtain ⟨-, -, -, -, -, -, -, -, e8, e9, e10, -⟩ := idx_facts t
  show V c main_v6 (((cfg1.win 3).blk t).view.emb (ix3 (0 : Fin 1) mm g)) = V c main_v6 (ix3 (batchOf t) mm g)
  refine congrArg (V c main_v6) ?_
  funext a; apply Fin.ext
  match a with
  | ⟨0, _⟩ => show win1_3.index t (0 : Fin 3) * 1 + 1 * 0 = t.val / 8; omega
  | ⟨1, _⟩ => show win1_3.index t (1 : Fin 3) * 2048 + 1 * mm.val = mm.val; omega
  | ⟨2, _⟩ => show win1_3.index t (2 : Fin 3) * 1024 + 1 * g.val = g.val; omega

/-- Entry `(0, p, f)` of point `t`'s output block sits at batch `batchOf t`, row `rowOf t p`, feature `f`. -/
theorem emb_out (t : Fin cfg1.N) (p : Fin 256) (f : Fin 1024) :
    ((cfg1.win 4).blk t).view.emb (ix3 (0 : Fin 1) p f) = ix3 (batchOf t) (rowOf t p) f := by
  obtain ⟨-, -, -, -, -, -, -, -, -, -, -, e11, e12, e13⟩ := idx_facts t
  funext a; apply Fin.ext
  match a with
  | ⟨0, _⟩ => show win1_4.index t (0 : Fin 3) * 1 + 1 * 0 = t.val / 8; omega
  | ⟨1, _⟩ => show win1_4.index t (1 : Fin 3) * 256 + 1 * p.val = t.val % 8 * 256 + p.val; omega
  | ⟨2, _⟩ => show win1_4.index t (2 : Fin 3) * 1024 + 1 * f.val = f.val; omega

/-! ## What a point writes back -/

/-- What point `t` writes back is block `t` of the attention of the arrays the region was entered with. -/
theorem flushed_attn (c : Dev nD) (t : Fin cfg1.N) :
    (dat1 V c).flushed 4 t
      = ((cfg1.win 4).blk t).view.read (Elt Ideal) (attnOf (V c main_arg0) (V c main_v0) (V c main_v5) (V c main_v6)) := by
  show (cfg1.win 4).cut (grid1.coords t) ((dat1 V c).after 4 t) = _
  rw [after1_4]
  unfold out1_4
  rw [View.canon_unit_zero hz3]
  simp only [View.ld_unit_zero (S := S1x256x1024) hz3, View.ld_unit_zero (S := S1024x1024) hz2, View.ld_unit_zero (S := S1x2048x1024) hz3]
  funext j
  obtain ⟨u, p, f, rfl⟩ : ∃ (u : Fin 1) (p : Fin 256) (f : Fin 1024), j = ix3 u p f := ⟨j 0, j 1, j 2, eq_ix3 j⟩
  obtain rfl : u = 0 := Subsingleton.elim _ _
  refine (Cert.Attn.Pay.attn_pay (iblk1 V c 0 t) (iblk1 V c 1 t) (iblk1 V c 2 t) (iblk1 V c 3 t) p f).trans ?_
  show _ = attnOf (V c main_arg0) (V c main_v0) (V c main_v5) (V c main_v6) (((cfg1.win 4).blk t).view.emb (ix3 (0 : Fin 1) p f))
  rw [emb_out t p f, attnOf_ix3]
  unfold attnAt
  rw [show (fun d => iblk1 V c 0 t (ix3 (0 : Fin 1) p d)) = fun d => V c main_arg0 (ix3 (batchOf t) (rowOf t p) d) from funext (read_q V c t p),
    show (fun d e => iblk1 V c 1 t (ix2 d e)) = fun d e => V c main_v0 (ix2 d e) from funext fun d => funext (read_wq V c t d),
    show (fun mm e => iblk1 V c 2 t (ix3 (0 : Fin 1) mm e)) = fun mm e => V c main_v5 (ix3 (batchOf t) mm e) from funext fun mm => funext (read_k V c t mm),
    show (fun mm g => iblk1 V c 3 t (ix3 (0 : Fin 1) mm g)) = fun mm g => V c main_v6 (ix3 (batchOf t) mm g) from funext fun mm => funext (read_v V c t mm)]

/-! ## The blocks cover the array -/

theorem mem_blk_out (t : Fin cfg1.N) (i : S8x2048x1024.Idx) :
    i ∈ ((cfg1.win 4).blk t).view.set ↔ ∀ a : Fin 3, win1_4.index t a * S1x256x1024.size a ≤ (i a).val ∧ (i a).val < win1_4.index t a * S1x256x1024.size a + S1x256x1024.size a := by
  show i ∈ ((View.whole main_v7).slice (win1_4.rect t)).set ↔ _
  rw [View.set_slice_whole, Rect.mem_set_unit]
  exact Iff.rfl

/-- The point that covers batch `b`, row `n` is `8·b + n / 256`. -/
def pointOf (i : S8x2048x1024.Idx) : Fin cfg1.N :=
  ⟨(i 0).val * 8 + (i 1).val / 256, by
    have h0 : (i 0).val < 8 := (i 0).isLt
    have h1 : (i 1).val < 2048 := (i 1).isLt
    rw [show cfg1.N = 64 from N_1]; omega⟩

theorem cover_out (i : S8x2048x1024.Idx) :
    ∃ t : Fin cfg1.N, (cfg1.win 4).flush t = true ∧ i ∈ ((cfg1.win 4).blk t).view.set := by
  have hi0 : (i 0).val < 8 := (i 0).isLt
  have hi1 : (i 1).val < 2048 := (i 1).isLt
  have hi2 : (i 2).val < 1024 := (i 2).isLt
  have ht : (pointOf i).val = (i 0).val * 8 + (i 1).val / 256 := rfl
  obtain ⟨-, -, -, -, -, -, -, -, -, -, -, e11, e12, e13⟩ := idx_facts (pointOf i)
  refine ⟨pointOf i, flush1_4 _, ?_⟩
  rw [mem_blk_out]
  intro a
  match a with
  | ⟨0, _⟩ => show win1_4.index (pointOf i) (0 : Fin 3) * 1 ≤ (i 0).val ∧ (i 0).val < win1_4.index (pointOf i) (0 : Fin 3) * 1 + 1; omega
  | ⟨1, _⟩ => show win1_4.index (pointOf i) (1 : Fin 3) * 256 ≤ (i 1).val ∧ (i 1).val < win1_4.index (pointOf i) (1 : Fin 3) * 256 + 256; omega
  | ⟨2, _⟩ => show win1_4.index (pointOf i) (2 : Fin 3) * 1024 ≤ (i 2).val ∧ (i 2).val < win1_4.index (pointOf i) (2 : Fin 3) * 1024 + 1024; omega

/-! ## The array after the region -/

/-- After the last point the result array is the attention of the arrays the region was entered with. -/
theorem final_attn (c : Dev nD) :
    (dat1 V c).arrAt 4 cfg1.N = attnOf (V c main_arg0) (V c main_v0) (V c main_v5) (V c main_v6) :=
  (dat1 V c).arrAt_eq_of_cover 4 _ (fun t _ => flushed_attn V c t) cover_out

end Cert.KernelIdeal.AttnValue

end
-- ==== Proof.KernelValue.lean ====
/-
  The idealized kernel's result is the attention function of its five arguments.

  The attention region leaves in the result array the attention of the arrays it was entered with: `q` as launched,
  the cast query weight, and the projection region's two output arrays reshaped to [8, 2048, 1024]; those two arrays
  are the projected keys and the values of the reshaped `y` and the cast weights.  A reshape between
  [8, 2048, 1024] and [16384, 1024] pairs batch `b`, position `m` with row `2048·b + m` and keeps the last
  coordinate; a cast to bf16 changes no value over the extended reals.  So key `(b, m, e)` is row `m` of batch `b`
  of `y` times the key weight, and the composed function is the specification, index by index.
-/
import proofs.«162966_j58171037057444_2_alg».proof.Proof.KernelRun
import proofs.«162966_j58171037057444_2_alg».proof.Proof.HostGlue
import proofs.«162966_j58171037057444_2_alg».proof.Proof.ProjBlocks
import proofs.«162966_j58171037057444_2_alg».proof.Proof.AttnBlocks
import proofs.«162966_j58171037057444_2_alg».proof.Proof.AttnSpec
import Idealize.ShloMosaic.Lib.Pipeline.Value
import Idealize.ShloMosaic.Lib.ValueIdx

set_option maxRecDepth 16384

noncomputable section

namespace Cert.KernelIdeal.Whole

open Cert.KernelIdeal Cert.KernelIdeal.Gen Cert.Attn
open Idealize.ShloMosaic Idealize.ShloMosaic.TcCoe Idealize.ShloMosaic.ValueIdx Idealize.SL.Sem

/-! ## The two reshapes read at an index -/

/-- Batch `b`, position `m` is row `2048·b + m` of the flattened array. -/
def flatRow (b : Fin 8) (mm : Fin 2048) : Fin 16384 := ⟨b.val * 2048 + mm.val, by omega⟩

/-- `y` flattened to [16384, 1024], at row `2048·b + m`, is `y` at `(b, m)`. -/
theorem flatten_apply (y : S8x2048x1024.Idx → EReal) (b : Fin 8) (mm : Fin 2048) (d : Fin 1024) :
    shapeCast S16384x1024 y shapeCasts_S8x2048x1024_S16384x1024 (ix2 (flatRow b mm) d) = y (ix3 b mm d) :=
  shapeCast_apply y _ _ _ (by
    rw [Shape.rowMajor_val_three, Shape.rowMajor_val_two]
    show (b.val * 2048 + mm.val) * 1024 + d.val = (b.val * 2048 + mm.val) * 1024 + d.val
    rfl)

/-- A [16384, 1024] array unflattened to [8, 2048, 1024], at `(b, m)`, is the array at row `2048·b + m`. -/
theorem unflatten_apply (x : S16384x1024.Idx → EReal) (b : Fin 8) (mm : Fin 2048) (e : Fin 1024) :
    shapeCast S8x2048x1024 x shapeCasts_S16384x1024_S8x2048x1024 (ix3 b mm e) = x (ix2 (flatRow b mm) e) :=
  shapeCast_apply x _ _ _ (by
    rw [Shape.rowMajor_val_three, Shape.rowMajor_val_two]
    show (b.val * 2048 + mm.val) * 1024 + e.val = (b.val * 2048 + mm.val) * 1024 + e.val
    rfl)

/-! ## The composed function is the specification -/

/-- The projected keys of the flattened `y`, unflattened, are the specification's projected keys … -/
theorem keys_eq (y : S8x2048x1024.Idx → EReal) (wk : S1024x1024.Idx → EReal) (b : Fin 8) (mm : Fin 2048) (e : Fin 1024) :
    shapeCast S8x2048x1024 (ProjValue.keysOf (shapeCast S16384x1024 y shapeCasts_S8x2048x1024_S16384x1024) wk)
        shapeCasts_S16384x1024_S8x2048x1024 (ix3 b mm e)
      = kproj y wk b mm e := by
  rw [unflatten_apply, ProjValue.keysOf_ix2]
  unfold ProjValue.keysAt kproj
  rw [show (fun d => shapeCast S16384x1024 y shapeCasts_S8x2048x1024_S16384x1024 (ix2 (flatRow b mm) d)) = fun d => y (ix3 b mm d)
    from funext (flatten_apply y b mm)]

/-- … and the values likewise. -/
theorem vals_eq (y : S8x2048x1024.Idx → EReal) (wk wv : S1024x1024.Idx → EReal) (b : Fin 8) (mm : Fin 2048) (f : Fin 1024) :
    shapeCast S8x2048x1024 (ProjValue.valsOf (shapeCast S16384x1024 y shapeCasts_S8x2048x1024_S16384x1024) wk wv)
        shapeCasts_S16384x1024_S8x2048x1024 (ix3 b mm f)
      = vproj y wk wv b mm f := by
  rw [unflatten_apply, ProjValue.valsOf_ix2]
  unfold ProjValue.valsAt vproj kproj
  rw [show (fun d => shapeCast S16384x1024 y shapeCasts_S8x2048x1024_S16384x1024 (ix2 (flatRow b mm) d)) = fun d => y (ix3 b mm d)
    from funext (flatten_apply y b mm)]

/-- The attention of `q`, the query weight and the unflattened projections is the specification. -/
theorem attn_of_proj (q y : S8x2048x1024.Idx → EReal) (wq wk wv : S1024x1024.Idx → EReal) :
    AttnValue.attnOf q wq
        (shapeCast S8x2048x1024 (ProjValue.keysOf (shapeCast S16384x1024 y shapeCasts_S8x2048x1024_S16384x1024) wk) shapeCasts_S16384x1024_S8x2048x1024)
        (shapeCast S8x2048x1024 (ProjValue.valsOf (shapeCast S16384x1024 y shapeCasts_S8x2048x1024_S16384x1024) wk wv) shapeCasts_S16384x1024_S8x2048x1024)
      = Cert.Attn.out q y wq wk wv := by
  funext i
  obtain ⟨b, n, f, rfl⟩ : ∃ (b : Fin 8) (n : Fin 2048) (f : Fin 1024), i = ix3 b n f := ⟨i 0, i 1, i 2, eq_ix3 i⟩
  rw [AttnValue.attnOf_ix3, Cert.Attn.out_ix3]
  unfold AttnValue.attnAt Cert.Attn.outAt
  rw [show (fun mm e => shapeCast S8x2048x1024 (ProjValue.keysOf (shapeCast S16384x1024 y shapeCasts_S8x2048x1024_S16384x1024) wk) shapeCasts_S16384x1024_S8x2048x1024 (ix3 b mm e)) = kproj y wk b
      from funext fun mm => funext (keys_eq y wk b mm),
    show (fun mm g => shapeCast S8x2048x1024 (ProjValue.valsOf (shapeCast S16384x1024 y shapeCasts_S8x2048x1024_S16384x1024) wk wv) shapeCasts_S16384x1024_S8x2048x1024 (ix3 b mm g)) = vproj y wk wv b
      from funext fun mm => funext (vals_eq y wk wv b mm)]

/-- Over the extended reals a cast to bf16 is the identity. -/
theorem cast_id (x : FVec Ideal S1024x1024 .f32) :
    (truncf .bf16 x bitsLt_bf16_f32 : FVec Ideal S1024x1024 .bf16) = x := rfl

variable (m : (ℓ : Loc nD τ sig) → Buf (Elt Ideal) ℓ) (ρ : Dev nD → PrngReg)

/-- What the attention region's write-backs leave in the result array is the specification of the launch memory's
    argument arrays. -/
theorem result_value (c : Dev nD) :
    (dat1 (V3 m ρ) c).arrAt 4 cfg1.N
      = Cert.Attn.out (m ((c : Thread nD τ).loc main_arg0)) (m ((c : Thread nD τ).loc main_arg1))
          (m ((c : Thread nD τ).loc main_arg2)) (m ((c : Thread nD τ).loc main_arg3)) (m ((c : Thread nD τ).loc main_arg4)) := by
  rw [AttnValue.final_attn (V3 m ρ) c, Glue.V3_q, Glue.V3_wq, Glue.V3_keys, Glue.V3_vals,
    ProjValue.final_keys (V1 m ρ) c, ProjValue.final_vals (V1 m ρ) c, Glue.V1_y, Glue.V1_wk, Glue.V1_wv,
    cast_id, cast_id, cast_id]
  exact attn_of_proj _ _ _ _ _

/-- The idealized kernel's run: every weakly fair execution terminates, nothing faulting, with the result array at the
    specification of the argument arrays and the arguments as launched. -/
theorem run : θ_run defs (onTc (τ := τ) (main (F := Ideal))) ⟨m, fun _ => 0, ρ⟩ (fun r => ∀ c : Dev nD,
      r.2.mem ((c.tc : Thread nD τ).loc main_v7)
        = Cert.Attn.out (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_value m ρ c), (h c).2⟩) (RunValue.run_result m ρ)

end Cert.KernelIdeal.Whole

end
-- ==== Proof.RefValue.lean ====
/-
  The reference computes the cross attention of AttnSpec, stage by stage.

  Each stage of the reference is read at an index built from literal coordinates and identified with the
  corresponding function of the specification: the three projections are `projRow` sums, the divided score is
  `scoreRow` (dividing by the square root of 1024 is multiplying by 2⁻⁵), the reduced maximum, taken once more
  against −∞, is `maxRow`, the exponentials are `numRow`, their sum from the zero word is `denRow`, and the last
  contraction is `mixRow`.  Only re-indexing of sums and the literal facts of AttnConsts are used.
-/
import proofs.«162966_j58171037057444_2_alg».proof.Proof.Gen.ReferenceIdeal.Read
import proofs.«162966_j58171037057444_2_alg».proof.Proof.AttnSpec
import proofs.«162966_j58171037057444_2_alg».proof.Proof.AttnConsts

noncomputable section

namespace Cert.Attn.Ref

open Idealize.ShloMosaic Idealize.ShloMosaic.ValueIdx Cert.ReferenceIdeal Cert.ReferenceIdeal.Gen Cert.ReferenceIdeal.Read
open scoped BigOperators

/-- The two array types of the reference's arguments. -/
abbrev A3 : Type := (⟨S8x2048x1024, .f32⟩ : BufTy).Contents (Elt Ideal)
abbrev A2 : Type := (⟨S1024x1024, .f32⟩ : BufTy).Contents (Elt Ideal)

/-! ## The three projections -/

/-- The projected query: stage 0 at `(b, n, e)` is the query row `(b, n)` times the query weight, at `e`. -/
theorem v0_at (x0 : A3) (x2 : A2) (b : Fin 8) (n : Fin 2048) (e : Fin 1024) :
    val_main_v0 (F := Ideal) x0 x2 (ix3 b n e)
      = projRow (fun d => x0 (ix3 b n d)) (fun d e' => x2 (ix2 d e')) e := by
  rw [val_main_v0_apply]
  unfold projRow
  refine Finset.sum_congr rfl fun k _ => ?_
  have el : lidx_main_v0 (ix3 b n e) k = ix3 b n k :=
    funext fun a => Fin.ext (by match a with | ⟨0, _⟩ => rfl | ⟨1, _⟩ => rfl | ⟨2, _⟩ => rfl)
  have er : ridx_main_v0 (ix3 b n e) k = ix2 k e :=
    funext fun a => Fin.ext (by match a with | ⟨0, _⟩ => rfl | ⟨1, _⟩ => rfl)
  rw [el, er]

/-- The projected key: stage 1 at `(b, m, e)` is `kproj`. -/
theorem v1_at (x1 : A3) (x3 : A2) (b : Fin 8) (m : Fin 2048) (e : Fin 1024) :
    val_main_v1 (F := Ideal) x1 x3 (ix3 b m e) = kproj x1 x3 b m e := by
  rw [val_main_v1_apply]
  unfold kproj projRow
  refine Finset.sum_congr rfl fun k _ => ?_
  have el : lidx_main_v1 (ix3 b m e) k = ix3 b m k :=
    funext fun a => Fin.ext (by match a with | ⟨0, _⟩ => rfl | ⟨1, _⟩ => rfl | ⟨2, _⟩ => rfl)
  have er : ridx_main_v1 (ix3 b m e) k = ix2 k e :=
    funext fun a => Fin.ext (by match a with | ⟨0, _⟩ => rfl | ⟨1, _⟩ => rfl)
  rw [el, er]

/-- The value: stage 2 at `(b, m, f)` is the value weight applied to the projected key, `vproj`. -/
theorem v2_at (x1 : A3) (x3 x4 : A2) (b : Fin 8) (m : Fin 2048) (f : Fin 1024) :
    val_main_v2 (F := Ideal) x1 x3 x4 (ix3 b m f) = vproj x1 x3 x4 b m f := by
  rw [val_main_v2_apply]
  unfold vproj projRow
  refine Finset.sum_congr rfl fun k _ => ?_
  have el : lidx_main_v2 (ix3 b m f) k = ix3 b m k :=
    funext fun a => Fin.ext (by match a with | ⟨0, _⟩ => rfl | ⟨1, _⟩ => rfl | ⟨2, _⟩ => rfl)
  have er : ridx_main_v2 (ix3 b m f) k = ix2 k f :=
    funext fun a => Fin.ext (by match a with | ⟨0, _⟩ => rfl | ⟨1, _⟩ => rfl)
  rw [el, er, v1_at]

/-! ## The scaled score -/

/-- The projected query row of `(b, n)`, as the specification writes it. -/
abbrev qRow (x0 : A3) (x2 : A2) (b : Fin 8) (n : Fin 2048) : Fin 1024 → EReal :=
  projRow (fun d => x0 (ix3 b n d)) (fun d e => x2 (ix2 d e))

/-- The score row of `(b, n)`, as the specification writes it. -/
abbrev sRow (x0 x1 : A3) (x2 x3 : A2) (b : Fin 8) (n : Fin 2048) : Fin 2048 → EReal :=
  scoreRow (qRow x0 x2 b n) (kproj x1 x3 b)

/-- The unscaled score: stage 3 at `(b, n, m)` is the projected query row `(b, n)` against the projected key `(b, m)`. -/
theorem v3_at (x0 x1 : A3) (x2 x3 : A2) (b : Fin 8) (n m : Fin 2048) :
    val_main_v3 (F := Ideal) x0 x1 x2 x3 (ix3 b n m) = ∑ e : Fin 1024, qRow x0 x2 b n e * kproj x1 x3 b m e := by
  rw [val_main_v3_apply]
  refine Finset.sum_congr rfl fun k _ => ?_
  have el : lidx_main_v3 (ix3 b n m) k = ix3 b n k :=
    funext fun a => Fin.ext (by match a with | ⟨0, _⟩ => rfl | ⟨1, _⟩ => rfl | ⟨2, _⟩ => rfl)
  have er : ridx_main_v3 (ix3 b n m) k = ix3 b m k :=
    funext fun a => Fin.ext (by match a with | ⟨0, _⟩ => rfl | ⟨1, _⟩ => rfl | ⟨2, _⟩ => rfl)
  rw [el, er, v0_at, v1_at]

/-- The divisor: stage 5 is everywhere the square root of the word `1024.0`. -/
theorem v5_at (i : S8x2048x2048.Idx) :
    val_main_v5 (F := Ideal) i = Ideal.sqrt (Ideal.ofBits .f32 0x44800000#32) := by
  rw [val_main_v5_apply, val_main_v4_apply, val_main_cst_apply]
  rfl

/-- The score: stage 6 at `(b, n, m)` is the specification's scaled score. -/
theorem v6_at (x0 x1 : A3) (x2 x3 : A2) (b : Fin 8) (n m : Fin 2048) :
    val_main_v6 (F := Ideal) x0 x1 x2 x3 (ix3 b n m) = sRow x0 x1 x2 x3 b n m := by
  rw [val_main_v6_apply, v5_at, v3_at, Ideal.hostDivf_def, div_sqrt_1024]
  rfl

/-- A whole score row. -/
theorem v6_row (x0 x1 : A3) (x2 x3 : A2) (b : Fin 8) (n : Fin 2048) :
    (fun m : Fin 2048 => val_main_v6 (F := Ideal) x0 x1 x2 x3 (ix3 b n m)) = sRow x0 x1 x2 x3 b n :=
  funext fun m => v6_at x0 x1 x2 x3 b n m

/-! ## The row maximum -/

/-- The reduced maximum: stage 7 at `(b, n)` folds `max` from `−∞` over the score row `(b, n)`. -/
theorem v7_at (x0 x1 : A3) (x2 x3 : A2) (b : Fin 8) (n : Fin 2048) :
    val_main_v7 (F := Ideal) x0 x1 x2 x3 (ix2 b n) = maxRow (sRow x0 x1 x2 x3 b n) := by
  rw [← v6_row]
  unfold val_main_v7
  generalize val_main_v6 (F := Ideal) x0 x1 x2 x3 = y
  refine (Host.reduce_eq_fold_single (f := FloatOps.maximumf (F := Ideal) (φ := .f32)) y (val_main_cst_0 (F := Ideal))
    reducesTo_S8x2048x2048_S8x2048_d2 (by decide) h_S_ (ix2 b n)).trans ?_
  unfold maxRow
  refine congrArg (fun g : Fin 2048 → EReal => (Finset.univ : Finset (Fin 2048)).fold max negInfW g) ?_
  funext m
  exact congrArg y (funext fun a => Fin.ext (by match a with | ⟨0, _⟩ => rfl | ⟨1, _⟩ => rfl | ⟨2, _⟩ => rfl))

/-- The maximum taken once more against `−∞`: stage 9 at `(b, n)` is still the row's maximum. -/
theorem v9_at (x0 x1 : A3) (x2 x3 : A2) (b : Fin 8) (n : Fin 2048) :
    val_main_v9 (F := Ideal) x0 x1 x2 x3 (ix2 b n) = maxRow (sRow x0 x1 x2 x3 b n) := by
  rw [val_main_v9_apply, val_main_v8_apply, val_main_cst_1_apply, v7_at]
  exact max_negInfW _

/-- The maximum broadcast back along the keys: stage 11 at `(b, n, m)` is the maximum of row `(b, n)`. -/
theorem v11_at (x0 x1 : A3) (x2 x3 : A2) (b : Fin 8) (n m : Fin 2048) :
    val_main_v11 (F := Ideal) x0 x1 x2 x3 (ix3 b n m) = maxRow (sRow x0 x1 x2 x3 b n) := by
  rw [val_main_v11_apply, val_main_v10_apply]
  have e : idx_main_v10 (idx_main_v11 (ix3 b n m)) = ix2 b n :=
    funext fun a => Fin.ext (by match a with | ⟨0, _⟩ => rfl | ⟨1, _⟩ => rfl)
  rw [e, v9_at]

/-! ## The softmax numerator and denominator -/

/-- The exponentials: stage 13 at `(b, n, m)` is the numerator of row `(b, n)` at key `m`. -/
theorem v13_at (x0 x1 : A3) (x2 x3 : A2) (b : Fin 8) (n m : Fin 2048) :
    val_main_v13 (F := Ideal) x0 x1 x2 x3 (ix3 b n m) = numRow (sRow x0 x1 x2 x3 b n) m := by
  rw [val_main_v13_apply, val_main_v12_apply, v6_at, v11_at, Ideal.subf_def, Ideal.hostUnary_exp_def]
  rfl

/-- Their sum from the zero word: stage 14 at `(b, n)` is the denominator of row `(b, n)`. -/
theorem v14_at (x0 x1 : A3) (x2 x3 : A2) (b : Fin 8) (n : Fin 2048) :
    val_main_v14 (F := Ideal) x0 x1 x2 x3 (ix2 b n) = denRow (sRow x0 x1 x2 x3 b n) := by
  rw [val_main_v14_apply, val_main_cst_2_apply, Ideal.ofBits_def, ofBits_zero, zero_add]
  unfold denRow
  refine Finset.sum_congr rfl fun k _ => ?_
  have e : idx_main_v14 (ix2 b n) k = ix3 b n k :=
    funext fun a => Fin.ext (by match a with | ⟨0, _⟩ => rfl | ⟨1, _⟩ => rfl | ⟨2, _⟩ => rfl)
  rw [e, v13_at]

/-- The denominator broadcast back along the keys: stage 16 at `(b, n, m)` is the denominator of row `(b, n)`. -/
theorem v16_at (x0 x1 : A3) (x2 x3 : A2) (b : Fin 8) (n m : Fin 2048) :
    val_main_v16 (F := Ideal) x0 x1 x2 x3 (ix3 b n m) = denRow (sRow x0 x1 x2 x3 b n) := by
  rw [val_main_v16_apply, val_main_v15_apply]
  have e : idx_main_v15 (idx_main_v16 (ix3 b n m)) = ix2 b n :=
    funext fun a => Fin.ext (by match a with | ⟨0, _⟩ => rfl | ⟨1, _⟩ => rfl)
  rw [e, v14_at]

/-- The softmax weight: stage 17 at `(b, n, m)` is the numerator over the denominator. -/
theorem v17_at (x0 x1 : A3) (x2 x3 : A2) (b : Fin 8) (n m : Fin 2048) :
    val_main_v17 (F := Ideal) x0 x1 x2 x3 (ix3 b n m)
      = Ideal.div (numRow (sRow x0 x1 x2 x3 b n) m) (denRow (sRow x0 x1 x2 x3 b n)) := by
  rw [val_main_v17_apply, v13_at, v16_at, Ideal.hostDivf_def]

/-! ## The mix over the values, and the whole array -/

/-- The last contraction: stage 18 at `(b, n, f)` is the specification's output there. -/
theorem v18_at (x0 x1 : A3) (x2 x3 x4 : A2) (b : Fin 8) (n : Fin 2048) (f : Fin 1024) :
    val_main_v18 (F := Ideal) x0 x1 x2 x3 x4 (ix3 b n f) = outAt x0 x1 x2 x3 x4 b n f := by
  rw [val_main_v18_apply]
  unfold outAt rowAttn mixRow
  refine Finset.sum_congr rfl fun k _ => ?_
  have el : lidx_main_v18 (ix3 b n f) k = ix3 b n k :=
    funext fun a => Fin.ext (by match a with | ⟨0, _⟩ => rfl | ⟨1, _⟩ => rfl | ⟨2, _⟩ => rfl)
  have er : ridx_main_v18 (ix3 b n f) k = ix3 b k f :=
    funext fun a => Fin.ext (by match a with | ⟨0, _⟩ => rfl | ⟨1, _⟩ => rfl | ⟨2, _⟩ => rfl)
  rw [el, er, v17_at, v2_at]

/-- The reference's result is the specification's attention array. -/
theorem ref_eq (x0 x1 : (⟨Cert.ReferenceIdeal.S8x2048x1024, .f32⟩ : BufTy).Contents (Elt Ideal))
    (x2 x3 x4 : (⟨Cert.ReferenceIdeal.S1024x1024, .f32⟩ : BufTy).Contents (Elt Ideal)) :
    Cert.ReferenceIdeal.Read.val_main_v18 (F := Ideal) x0 x1 x2 x3 x4 = Cert.Attn.out x0 x1 x2 x3 x4 := by
  funext i
  obtain ⟨b, n, f, rfl⟩ : ∃ (b : Fin 8) (n : Fin 2048) (f : Fin 1024), i = ix3 b n f :=
    ⟨i 0, i 1, i 2, ValueIdx.eq_ix3 i⟩
  rw [out_ix3, v18_at]

end Cert.Attn.Ref

end
-- ==== Proof.lean ====
/-
  Cross attention with projected queries, keys and values: a two-region kernel against its einsum reference.

  Both programs compute, for a batch `b`, a query position `n` and an output feature `f`,
      out(b,n,f) = ∑ m, softmax_m( (q·Wq)(b,n,·) · (y·Wk)(b,m,·) / √1024 ) · ((y·Wk)·Wv)(b,m,f),
  the value weight applied to the PROJECTED keys.  The kernel does it in two regions — one projects the keys and the
  values of 1024 rows of the flattened `y` per grid point, the other projects 256 query rows per grid point and
  attends over all 2048 keys and values of their batch — and scales the scores by the word `2⁻⁵`; the reference
  divides them by the square root of the word `1024.0`.

  Over the extended reals a change of float format is the identity, a matrix product into a zero accumulator and a
  `dot_general` are the same sum, a lane reduction and a host reduction over one axis are the same sum or the same
  fold of `max`, and `√1024 = 32` exactly, so dividing by it is multiplying by `2⁻⁵`.  Every sum and every product is
  taken in the same order on both sides; no law that could fail at an infinity is used, and the precondition that
  the inputs are finite is never opened.

  * `Cert.Attn.out` (Proof/AttnSpec.lean) is that function of the five argument arrays.
  * The kernel ends with its result array at `Cert.Attn.out` of the arguments (Proof/KernelValue.lean): the run's
    final contents, the two regions' output arrays as whole-array functions of what the regions read, the host's
    casts and reshapes in between.
  * The reference's composed term is `Cert.Attn.out` of the arguments (Proof/RefValue.lean).
  The word-level kernel and its idealization are the same text read at two instances: no rewrite was applied, and
  `preserves` has nothing to state.
-/
import proofs.«162966_j58171037057444_2_alg».proof.Defs
import proofs.«162966_j58171037057444_2_alg».proof.Proof.Gen.Kernel
import proofs.«162966_j58171037057444_2_alg».proof.Proof.Gen.Kernel.Skeleton
import proofs.«162966_j58171037057444_2_alg».proof.Proof.Gen.Kernel.Launch
import proofs.«162966_j58171037057444_2_alg».proof.Proof.Gen.Kernel.Points
import proofs.«162966_j58171037057444_2_alg».proof.Proof.Gen.Kernel.Frame
import proofs.«162966_j58171037057444_2_alg».proof.Proof.Gen.KernelIdeal
import proofs.«162966_j58171037057444_2_alg».proof.Proof.Gen.KernelIdeal.Skeleton
import proofs.«162966_j58171037057444_2_alg».proof.Proof.Gen.KernelIdeal.Launch
import proofs.«162966_j58171037057444_2_alg».proof.Proof.Gen.KernelIdeal.Points
import proofs.«162966_j58171037057444_2_alg».proof.Proof.Gen.KernelIdeal.Frame
import proofs.«162966_j58171037057444_2_alg».proof.Proof.Gen.ReferenceIdeal
import proofs.«162966_j58171037057444_2_alg».proof.Proof.Gen.ReferenceIdeal.Run
import proofs.«162966_j58171037057444_2_alg».proof.Proof.Gen.ReferenceIdeal.Read
import proofs.«162966_j58171037057444_2_alg».proof.Proof.Gen.Pre_finite_inputs
import proofs.«162966_j58171037057444_2_alg».proof.Proof.KernelValue
import proofs.«162966_j58171037057444_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From memories that agree on the five arguments both idealized programs end with their result arrays at the
    attention function of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Attn.Ref.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
